-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S1024x2048 : Shape := ⟨2, ![1024, 2048]⟩
abbrev S1x1024 : Shape := ⟨2, ![1, 1024]⟩
abbrev S1024x1024 : Shape := ⟨2, ![1024, 1024]⟩

abbrev nBuf : Space → Nat
  | .hbm => 9
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x2048_S1024x2048_S1024x1024_1_1_0_0_n_n_wf : DotDims.WF S1024x2048 S1024x2048 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x4096.size a
  hwx0_0 : ∀ i : grid0.Coords, EltTy.bits .bf16 = 32 ∨ (Rect.block (s := S8192x4096) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x2048_S1024x2048_S1024x1024_1_1_0_0_n_n : DotDims S1024x2048 S1024x2048 S1024x1024 where
  lhsContracting := [1]
  rhsContracting := [1]
  lhsNonContracting := [0]
  rhsNonContracting := [0]
  lhsBatch := []
  rhsBatch := []
  wf := dot_S1024x2048_S1024x2048_S1024x1024_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.HalfSums.lean ====
/-
  The one algebraic law that joins the two programs.  The reference contracts the whole inner axis of
  length 4096 in one sum; the kernel walks that axis in two halves of 2048, starting its accumulator at
  zero and adding one half-sum per visit.  In any commutative additive monoid (the extended reals are
  one: addition there is commutative and associative even at the infinities) a sum over 4096 terms is
  zero plus the sum of its first 2048 terms plus the sum of its last 2048 terms.  No finiteness is needed.
-/
import Mathlib.Algebra.BigOperators.Fin

namespace Cert.HalfSums

/-- Position `k` of the first half of an axis of length 4096. -/
def lo (k : Fin 2048) : Fin 4096 := ⟨k.val, by omega⟩

/-- Position `k` of the second half of an axis of length 4096. -/
def hi (k : Fin 2048) : Fin 4096 := ⟨2048 + k.val, by omega⟩

/-- A sum over 4096 terms is the sum of its first half plus the sum of its second half. -/
theorem sum_halves {M : Type*} [AddCommMonoid M] (f : Fin 4096 → M) :
    ∑ k : Fin 4096, f k = (∑ k : Fin 2048, f (lo k)) + ∑ k : Fin 2048, f (hi k) := by
  have h := Fin.sum_univ_add (a := 2048) (b := 2048) (fun i : Fin (2048 + 2048) => f i)
  exact h

/-- The same, with the accumulator's initial zero in front: the order in which the kernel adds. -/
theorem sum_halves_from_zero {M : Type*} [AddCommMonoid M] (f : Fin 4096 → M) :
    (0 + ∑ k : Fin 2048, f (lo k)) + ∑ k : Fin 2048, f (hi k) = ∑ k : Fin 4096, f k := by
  rw [zero_add, sum_halves]

end Cert.HalfSums
-- ==== Proof.CaseValues.lean ====
/-
  What one visit of the kernel body leaves behind, as values.

  The grid walks the inner axis in two visits per output block.  On the first visit the body clears the
  accumulator and adds the product of the visit's two blocks; on the second visit it adds the product of
  that visit's blocks to what the first visit left, and then stores the accumulator plus the bias row
  into the output block.  Each store writes a whole block and each load reads a whole block, so what a
  buffer holds after the visit is the last store's value, with every load replaced by the contents it read:

    first visit,  accumulator:  zero block + A₀·B₀ᵀ
    second visit, accumulator:  acc + A₁·B₁ᵀ
    second visit, output block: (acc + A₁·B₁ᵀ) + bias row broadcast down the rows

  These hold for any float instance: nothing here depends on what the arithmetic means.
-/
import proofs.«122250_j45853070852650_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.CaseValues

open Cert.KernelIdeal Cert.KernelIdeal.Gen

variable {F : FTy → Type} [FloatOps F]

/-- The offsets of a whole-block access are all zero. -/
theorem zero_offsets : (![0, 0] : Fin 2 → Nat) = fun _ => 0 := funext fun a => by fin_cases a <;> rfl

/-- FIRST VISIT: the accumulator ends at the zero block plus the product of the visit's two blocks.  The
    body stores the zero block, reads it back, adds the product and stores the sum: two whole-block
    stores, of which the later one stands, its read-back being the zero block the earlier one wrote. -/
theorem acc_first (c : Dev nD) (i : grid0.Coords)
    (a3 : Memref sig .tc .vmem S1024x2048 .bf16) (h3 : a3.IsWhole) (a4 : Memref sig .tc .vmem S1024x2048 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : cond0_0 i) (hc1 : ¬cond0_1 i)
    (x0 x1 : Vec F S1024x2048 .bf16) (x2 : Vec F S1x1024 .f32) :
    sout0_A_0 c i a3 h3 a4 h4 a5 h5 a6 h6 a7 h7 hc0 hc1 x0 x1 x2 = k0_pay2 (k0_pay1 (F := F)) x0 x1 := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S1024x1024) zero_offsets,
    View.readCov_unit_zero (S := S1024x1024) _ zero_offsets]
  simp only [View.readAt_eq_ld, h3.read_unread, h4.read_unread, View.ld_unit_zero (S := S1024x2048) zero_offsets]

/-- SECOND VISIT: the accumulator ends at what it held (`acc`) plus the product of this visit's two blocks:
    one whole-block store of that sum, every load reading a whole buffer. -/
theorem acc_second (c : Dev nD) (i : grid0.Coords)
    (a3 : Memref sig .tc .vmem S1024x2048 .bf16) (h3 : a3.IsWhole) (a4 : Memref sig .tc .vmem S1024x2048 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec F S1024x2048 .bf16) (x2 : Vec F S1x1024 .f32) (acc : Vec F S1024x1024 .f32) :
    sout0_B_0 c i a3 h3 a4 h4 a5 h5 a6 h6 a7 h7 hc0 hc1 x0 x1 x2 acc = k0_pay2 acc x0 x1 := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero zero_offsets]
  simp only [View.readAt_eq_ld, h3.read_unread, h4.read_unread, h7.read_unread,
    View.ld_unit_zero (S := S1024x2048) zero_offsets, View.ld_unit_zero (S := S1024x1024) zero_offsets]

/-- SECOND VISIT: the output block ends at the updated accumulator plus the bias row: the body reads the
    accumulator back after its store (so it reads `acc` plus the product), adds the broadcast bias row, and
    stores the whole block once. -/
theorem out_second (c : Dev nD) (i : grid0.Coords)
    (a3 : Memref sig .tc .vmem S1024x2048 .bf16) (h3 : a3.IsWhole) (a4 : Memref sig .tc .vmem S1024x2048 .bf16) (h4 : a4.IsWhole)
    (a5 : Memref sig .tc .vmem S1x1024 .f32) (h5 : a5.IsWhole) (a6 : Memref sig .tc .vmem S1024x1024 .f32) (h6 : a6.IsWhole)
    (a7 : Memref sig .tc .vmem S1024x1024 .f32) (h7 : a7.IsWhole) (hc0 : ¬cond0_0 i) (hc1 : cond0_1 i)
    (x0 x1 : Vec F S1024x2048 .bf16) (x2 : Vec F S1x1024 .f32) (acc : Vec F S1024x1024 .f32) :
    out0_B_3 c i a3 h3 a4 h4 a5 h5 a6 h6 a7 h7 hc0 hc1 x0 x1 x2 acc = k0_pay3 (k0_pay2 acc x0 x1) x2 := by
  unfold out0_B_3
  rw [View.read_writes_eq_canon _ _ _ (cover0_B_3 c i a3 h3 a4 h4 a5 h5 a6 h6 a7 h7 hc0 hc1 x0 x1 x2 acc)]
  unfold kernelRun0_B
  dsimp only
  sl_unfold_words
  rw [View.canon_unit_zero zero_offsets, View.readCov_unit_zero (S := S1024x1024) _ zero_offsets]
  simp only [View.readAt_eq_ld, h3.read_unread, h4.read_unread, h5.read_unread, h7.read_unread,
    View.ld_unit_zero (S := S1024x2048) zero_offsets, View.ld_unit_zero (S := S1024x1024) zero_offsets,
    View.ld_unit_zero (S := S1x1024) zero_offsets]

end Cert.KernelIdeal.CaseValues

end
-- ==== Proof.PointValue.lean ====
/-
  What the output block's staging buffer holds after the second visit of an output block, in terms of
  the blocks the two visits were handed.

  The grid has 64 points; point t visits output block (t / 8, (t / 2) % 4) for the (t % 2)-th time.  At an
  odd point the body runs its second-visit case on what the even point before it left in the accumulator,
  and that even point ran the first-visit case.  So after an odd point t the output buffer holds

    ((zero block + A₀·B₀ᵀ) + A₁·B₁ᵀ) + bias row,

  with (A₀, B₀) the operand blocks at point t − 1, (A₁, B₁) and the bias row those at point t.  Two points
  are enough: no induction over the grid is needed, because the accumulator is cleared at every even point.
-/
import proofs.«122250_j45853070852650_2_alg».proof.Proof.CaseValues

noncomputable section

open Idealize.ShloMosaic Idealize.ShloMosaic.TcCoe Idealize.SL.Sem

namespace Cert.KernelIdeal.PointValue

open Cert.KernelIdeal Cert.KernelIdeal.Gen

variable {F : FTy → Type} [FloatOps F]
variable (m : (ℓ : Loc nD τ sig) → Buf (Elt F) ℓ)

/-- The point before `t` (used at odd `t`, where it is the first visit of the same output block). -/
def before (t : Fin cfg0.N) : Fin cfg0.N := ⟨t.val - 1, Nat.lt_of_le_of_lt (Nat.sub_le _ _) t.isLt⟩

theorem before_val (t : Fin cfg0.N) : (before t).val = t.val - 1 := rfl

/-- After an EVEN point the accumulator holds the zero block plus the product of that point's two blocks. -/
theorem acc_after_even (c : Dev nD) (t : Fin cfg0.N) (h0 : t.val % 2 = 0) :
    (outsAt0 m c t.val t.isLt).2 = k0_pay2 (k0_pay1 (F := F)) (iblk m c 0 t) (iblk m c 1 t) := by
  have h1 : ¬t.val % 2 = 1 := by omega
  rw [outsAt0_A m c t h0 h1]
  dsimp only
  exact CaseValues.acc_first c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (iblk m c 0 t) (iblk m c 1 t) (iblk m c 2 t)

/-- After an ODD point the output buffer holds the two visits' chain over the two points' blocks. -/
theorem out_after_odd (c : Dev nD) (t : Fin cfg0.N) (h1 : t.val % 2 = 1) :
    (outsAt0 m c t.val t.isLt).1
      = k0_pay3 (k0_pay2 (k0_pay2 (k0_pay1 (F := F)) (iblk m c 0 (before t)) (iblk m c 1 (before t)))
          (iblk m c 0 t) (iblk m c 1 t)) (iblk m c 2 t) := by
  have h0 : ¬t.val % 2 = 0 := by omega
  have hb : (before t).val % 2 = 0 := by rw [before_val]; omega
  rw [outsAt0_B m c t h0 h1]
  dsimp only
  refine (CaseValues.out_second c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2).trans ?_
  exact congrArg (fun acc => k0_pay3 (k0_pay2 acc (iblk m c 0 t) (iblk m c 1 t)) (iblk m c 2 t))
    (acc_after_even m c (before t) hb)

end Cert.KernelIdeal.PointValue

end
-- ==== Proof.BlockAlgebra.lean ====
/-
  The kernel body's arithmetic at one entry of a block, over the extended reals.

  A visit multiplies a 1024×2048 block `A` of the left operand by the transpose of a 1024×2048 block `B`
  of the right operand: entry (p, q) of the product is the sum over the 2048 inner positions k of
  A[p, k] · B[q, k].  Chaining the two visits of an output block,

    entry (p, q)  =  ((0 + Σₖ A₀[p,k]·B₀[q,k]) + Σₖ A₁[p,k]·B₁[q,k]) + bias[0, q],

  where (A₀, B₀) are the first visit's blocks, (A₁, B₁) the second visit's, and the bias row is the same
  for every row p.  The change of float format the operands went through is the identity on extended
  reals and does not appear.
-/
import proofs.«122250_j45853070852650_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.KernelIdeal.BlockAlgebra

open Cert.KernelIdeal Cert.KernelIdeal.Gen

/-- The left operand's row coordinate of a product entry is the entry's row. -/
theorem lhs_row (j : S1024x1024.Idx) (k : dot_S1024x2048_S1024x2048_S1024x1024_1_1_0_0_n_n.contr.Idx) : (dot_S1024x2048_S1024x2048_S1024x1024_1_1_0_0_n_n.lhsIdx j k 0).val = (j 0).val := by
  unfold DotDims.lhsIdx
  rw [dif_neg (show ¬(0 : Fin S1024x2048.rank) ∈ dot_S1024x2048_S1024x2048_S1024x1024_1_1_0_0_n_n.lhsBatch by decide),
    dif_pos (show (0 : Fin S1024x2048.rank) ∈ dot_S1024x2048_S1024x2048_S1024x1024_1_1_0_0_n_n.lhsNonContracting by decide)]
  rfl

/-- The right operand's row coordinate of a product entry is the entry's column: the right block enters transposed. -/
theorem rhs_row (j : S1024x1024.Idx) (k : dot_S1024x2048_S1024x2048_S1024x1024_1_1_0_0_n_n.contr.Idx) : (dot_S1024x2048_S1024x2048_S1024x1024_1_1_0_0_n_n.rhsIdx j k 0).val = (j 1).val := by
  unfold DotDims.rhsIdx
  rw [dif_neg (show ¬(0 : Fin S1024x2048.rank) ∈ dot_S1024x2048_S1024x2048_S1024x1024_1_1_0_0_n_n.rhsBatch by decide),
    dif_pos (show (0 : Fin S1024x2048.rank) ∈ dot_S1024x2048_S1024x2048_S1024x1024_1_1_0_0_n_n.rhsNonContracting by decide)]
  rfl

/-- ONE VISIT'S PRODUCT at entry (p, q): the sum over the 2048 inner positions of A[p, k] · B[q, k]. -/
theorem product_at (A B : FVec Ideal S1024x2048 .bf16) (p q : Fin 1024) :
    matmul (F := Ideal) dot_S1024x2048_S1024x2048_S1024x1024_1_1_0_0_n_n none A B (constant (F := Ideal) S1024x1024 .f32 0x00000000#32) (ix2 p q)
      = ∑ k : Fin 2048, A (ix2 p k) * B (ix2 q k) := by
  show FloatOps.matmul (F := Ideal) dot_S1024x2048_S1024x2048_S1024x1024_1_1_0_0_n_n none A B (constant (F := Ideal) S1024x1024 .f32 0x00000000#32) (ix2 p q) = _
  rw [Ideal.matmul_constant_zero_apply, ← Equiv.sum_comp (contrEquiv1 dot_S1024x2048_S1024x2048_S1024x1024_1_1_0_0_n_n 2048 rfl rfl).symm]
  refine Finset.sum_congr rfl fun k _ => ?_
  have hk := contrEquiv1_symm_val dot_S1024x2048_S1024x2048_S1024x1024_1_1_0_0_n_n 2048 rfl rfl k
  have el : dot_S1024x2048_S1024x2048_S1024x1024_1_1_0_0_n_n.lhsIdx (ix2 p q) ((contrEquiv1 dot_S1024x2048_S1024x2048_S1024x1024_1_1_0_0_n_n 2048 rfl rfl).symm k) = ix2 p k :=
    funext fun a => Fin.ext (by
      match a with
      | ⟨0, _⟩ => exact lhs_row _ _
      | ⟨1, _⟩ => exact (dot_S1024x2048_S1024x2048_S1024x1024_1_1_0_0_n_n.lhsIdx_val_of_single rfl _ _).trans hk)
  have er : dot_S1024x2048_S1024x2048_S1024x1024_1_1_0_0_n_n.rhsIdx (ix2 p q) ((contrEquiv1 dot_S1024x2048_S1024x2048_S1024x1024_1_1_0_0_n_n 2048 rfl rfl).symm k) = ix2 q k :=
    funext fun a => Fin.ext (by
      match a with
      | ⟨0, _⟩ => exact rhs_row _ _
      | ⟨1, _⟩ => exact (dot_S1024x2048_S1024x2048_S1024x1024_1_1_0_0_n_n.rhsIdx_val_of_single rfl _ _).trans hk)
  rw [el, er]

/-- The accumulator's update at entry (p, q): what it held there plus the visit's product there. -/
theorem update_at (acc : Vec Ideal S1024x1024 .f32) (A B : Vec Ideal S1024x2048 .bf16) (p q : Fin 1024) :
    k0_pay2 (F := Ideal) acc A B (ix2 p q) = acc (ix2 p q) + ∑ k : Fin 2048, A (ix2 p k) * B (ix2 q k) := by
  unfold k0_pay2
  simp only [shapeCast_self]
  exact congrArg (acc (ix2 p q) + ·) (product_at A B p q)

/-- The cleared accumulator holds zero at every entry. -/
theorem cleared_at (j : S1024x1024.Idx) : k0_pay1 (F := Ideal) j = 0 := by
  unfold k0_pay1
  simp only [shapeCast_self]
  exact Ideal.ofBits_zero_f32

/-- THE OUTPUT BLOCK at entry (p, q) after the second visit: zero, plus the first visit's product, plus the
    second visit's product, plus the bias row's entry q. -/
theorem out_at (A0 B0 A1 B1 : Vec Ideal S1024x2048 .bf16) (bias : Vec Ideal S1x1024 .f32) (p q : Fin 1024) :
    k0_pay3 (F := Ideal) (k0_pay2 (k0_pay2 k0_pay1 A0 B0) A1 B1) bias (ix2 p q)
      = ((0 + ∑ k : Fin 2048, A0 (ix2 p k) * B0 (ix2 q k)) + ∑ k : Fin 2048, A1 (ix2 p k) * B1 (ix2 q k))
        + bias (ix2 (0 : Fin 1) q) := by
  unfold k0_pay3
  simp only [shapeCast_self]
  show k0_pay2 (k0_pay2 k0_pay1 A0 B0) A1 B1 (ix2 p q) + broadcastTo S1024x1024 bias broadcasts_S1x1024_S1024x1024 (ix2 p q) = _
  rw [update_at, update_at, cleared_at, broadcastTo_1b_ab_apply]

end Cert.KernelIdeal.BlockAlgebra

end
-- ==== Proof.Spec.lean ====
/-
  The function both programs compute, stated once over the argument arrays.

  With X the 8192×4096 data, W the 4096×4096 weight, M the 4096×4096 mask and B the bias of length 4096,
  entry (r, s) of the result is

      Σ_{k < 4096}  X[r, k] · (M[s, k] · W[s, k])   +   B[s]

  over the extended reals: a masked linear layer, the weight entering transposed.  The kernel reaches the
  same number by walking k in two halves from a cleared accumulator, which is the second form below; the
  two forms agree by associativity and commutativity of addition alone, so no input needs to be finite.
-/
import Idealize.ShloMosaic.PureOps.Ideal
import Idealize.ShloMosaic.Lib.ValueIdx
import proofs.«122250_j45853070852650_2_alg».proof.Proof.HalfSums

noncomputable section

open Idealize.ShloMosaic Idealize.ShloMosaic.ValueIdx

namespace Cert.MaskedLinear

open Cert.HalfSums

variable (X : (⟨2, ![8192, 4096]⟩ : Shape).Idx → EReal) (W M : (⟨2, ![4096, 4096]⟩ : Shape).Idx → EReal)
  (B : (⟨1, ![4096]⟩ : Shape).Idx → EReal)

/-- One term of the inner sum: position k of row r of the data times position k of row s of the masked weight. -/
def term (r : Fin 8192) (s : Fin 4096) (k : Fin 4096) : EReal := X (ix2 r k) * (M (ix2 s k) * W (ix2 s k))

/-- Entry (r, s) of the result. -/
def entry (r : Fin 8192) (s : Fin 4096) : EReal := (∑ k : Fin 4096, term X W M r s k) + B (ix1 s)

/-- The whole result array, index by index. -/
def result : (⟨2, ![8192, 4096]⟩ : Shape).Idx → EReal :=
  fun i => entry X W M B ⟨(i 0).val, idx2_lt0 i⟩ ⟨(i 1).val, idx2_lt1 i⟩

/-- The same entry in the order the kernel adds: zero, plus the first half of the inner axis, plus the
    second half, plus the bias. -/
theorem entry_halves (r : Fin 8192) (s : Fin 4096) :
    entry X W M B r s
      = ((0 + ∑ k : Fin 2048, term X W M r s (lo k)) + ∑ k : Fin 2048, term X W M r s (hi k)) + B (ix1 s) := by
  unfold entry
  rw [sum_halves_from_zero]

end Cert.MaskedLinear

end
-- ==== Proof.Blocks.lean ====
/-
  The blocks the kernel body is handed, read off the argument arrays.

  Point t of the 8 × 4 × 2 grid has coordinates (t / 8, (t / 2) % 4, t % 2): a row block of the data, a row
  block of the masked weight (a column block of the result), and a half of the inner axis.  Before the
  region the host multiplies the mask into the weight entry by entry, narrows both operands (the identity
  on extended reals) and views the bias as one row.  So, at point t,

    data block    [p, k]  =  X[1024·(t/8) + p,        2048·(t%2) + k]
    weight block  [q, k]  =  M[1024·((t/2)%4) + q, 2048·(t%2) + k] · W[the same index]
    bias block    [0, q]  =  B[1024·((t/2)%4) + q]

  and the second visit's output entry (p, q) — the chain over the blocks of points t − 1 and t — is entry
  (1024·(t/8) + p, 1024·((t/2)%4) + q) of the result.
-/
import proofs.«122250_j45853070852650_2_alg».proof.Proof.PointValue
import proofs.«122250_j45853070852650_2_alg».proof.Proof.BlockAlgebra
import proofs.«122250_j45853070852650_2_alg».proof.Proof.Spec
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.HalfSums Cert.MaskedLinear
open Cert.KernelIdeal.PointValue (before before_val)

variable (m : (ℓ : Loc nD τ sig) → Buf (Elt Ideal) ℓ)

/-- Each window's block index at point t, in closed form: decided once over the 64 points. -/
theorem index_facts : ∀ t : Fin cfg0.N,
    win0_0.index t (0 : Fin 2) = t.val / 8 ∧ win0_0.index t (1 : Fin 2) = t.val % 2
  ∧ win0_1.index t (0 : Fin 2) = t.val / 2 % 4 ∧ win0_1.index t (1 : Fin 2) = t.val % 2
  ∧ win0_2.index t (0 : Fin 2) = 0 ∧ win0_2.index t (1 : Fin 2) = t.val / 2 % 4
  ∧ win0_3.index t (0 : Fin 2) = t.val / 8 ∧ win0_3.index t (1 : Fin 2) = t.val / 2 % 4 :=
  (by decide +kernel : ∀ t : Fin grid0.N, _)

/-- The left operand as the region finds it is the data: the host only narrowed its format. -/
theorem data_found (c : Dev nD) :
    (V m c main_v0 : S8192x4096.Idx → EReal) = m ((c : Thread nD τ).loc main_arg0) := by
  have e : (V m c main_v0 : S8192x4096.Idx → EReal)
      = truncf (F := Ideal) .bf16 (m ((c : Thread nD τ).loc main_arg0)) bitsLt_bf16_f32 := by
    dsimp only [Gen.V, Gen.hostOps0]; after_results
  rw [e]; rfl

/-- The right operand as the region finds it is the mask times the weight, entry by entry. -/
theorem weights_found (c : Dev nD) :
    (V m c main_v2 : S4096x4096.Idx → EReal)
      = mulf (F := Ideal) (s := S4096x4096) (φ := .f32) (m ((c : Thread nD τ).loc main_arg2)) (m ((c : Thread nD τ).loc main_arg1)) := by
  have e : (V m c main_v2 : S4096x4096.Idx → EReal)
      = truncf (F := Ideal) .bf16 (mulf (F := Ideal) (s := S4096x4096) (φ := .f32) (m ((c : Thread nD τ).loc main_arg2)) (m ((c : Thread nD τ).loc main_arg1))) bitsLt_bf16_f32 := by
    dsimp only [Gen.V, Gen.hostOps0]; after_results
  rw [e]; rfl

/-- The bias as the region finds it is the bias vector viewed as one row. -/
theorem bias_found (c : Dev nD) :
    (V m c main_v3 : S1x4096.Idx → EReal)
      = shapeCast S1x4096 (m ((c : Thread nD τ).loc main_arg3)) shapeCasts_S4096_S1x4096 := by
  dsimp only [Gen.V, Gen.hostOps0]; after_results; rfl

/-- The data block at point t, entry (p, k), is the data at row 1024·(t/8) + p, column 2048·(t%2) + k. -/
theorem data_block (c : Dev nD) (t : Fin cfg0.N) (p : Fin 1024) (k : Fin 2048) (r : Fin 8192) (k' : Fin 4096)
    (hr : r.val = t.val / 8 * 1024 + p.val) (hk : k'.val = t.val % 2 * 2048 + k.val) :
    (iblk m c 0 t : Vec Ideal S1024x2048 .bf16) (ix2 p k) = m ((c : Thread nD τ).loc main_arg0) (ix2 r k') := by
  obtain ⟨e0, e1, -⟩ := index_facts t
  show V m c main_v0 (((cfg0.win 0).blk t).view.emb (ix2 p k)) = _
  rw [data_found]
  refine congrArg _ (funext fun a => Fin.ext ?_)
  match a with
  | ⟨0, _⟩ => show win0_0.index t (0 : Fin 2) * 1024 + 1 * p.val = r.val; rw [e0, hr]; omega
  | ⟨1, _⟩ => show win0_0.index t (1 : Fin 2) * 2048 + 1 * k.val = k'.val; rw [e1, hk]; omega

/-- The weight block at point t, entry (q, k), is mask times weight at row 1024·((t/2)%4) + q, column 2048·(t%2) + k. -/
theorem weight_block (c : Dev nD) (t : Fin cfg0.N) (q : Fin 1024) (k : Fin 2048) (s k' : Fin 4096)
    (hs : s.val = t.val / 2 % 4 * 1024 + q.val) (hk : k'.val = t.val % 2 * 2048 + k.val)
    (Mk Wt : S4096x4096.Idx → EReal) (hM : Mk = m ((c : Thread nD τ).loc main_arg2))
    (hW : Wt = m ((c : Thread nD τ).loc main_arg1)) :
    (iblk m c 1 t : Vec Ideal S1024x2048 .bf16) (ix2 q k) = Mk (ix2 s k') * Wt (ix2 s k') := by
  subst hM hW
  obtain ⟨-, -, e0, e1, -⟩ := index_facts t
  show V m c main_v2 (((cfg0.win 1).blk t).view.emb (ix2 q k)) = _
  rw [weights_found]
  refine (mulf_apply _ _ _).trans ?_
  have ei : ((cfg0.win 1).blk t).view.emb (ix2 q k) = (ix2 s k' : S4096x4096.Idx) := funext fun a => Fin.ext (by
    match a with
    | ⟨0, _⟩ => show win0_1.index t (0 : Fin 2) * 1024 + 1 * q.val = s.val; rw [e0, hs]; omega
    | ⟨1, _⟩ => show win0_1.index t (1 : Fin 2) * 2048 + 1 * k.val = k'.val; rw [e1, hk]; omega)
  rw [ei]

/-- The bias block at point t, entry (0, q), is the bias at position 1024·((t/2)%4) + q. -/
theorem bias_block (c : Dev nD) (t : Fin cfg0.N) (q : Fin 1024) (s : Fin 4096)
    (hs : s.val = t.val / 2 % 4 * 1024 + q.val) :
    (iblk m c 2 t : Vec Ideal S1x1024 .f32) (ix2 (0 : Fin 1) q) = m ((c : Thread nD τ).loc main_arg3) (ix1 s) := by
  obtain ⟨-, -, -, -, e0, e1, -⟩ := index_facts t
  show V m c main_v3 (((cfg0.win 2).blk t).view.emb (ix2 (0 : Fin 1) q)) = _
  rw [bias_found]
  have ei : ((cfg0.win 2).blk t).view.emb (ix2 (0 : Fin 1) q) = (ix2 (0 : Fin 1) s : S1x4096.Idx) := funext fun a => Fin.ext (by
    match a with
    | ⟨0, _⟩ => show win0_2.index t (0 : Fin 2) * 1 + 1 * 0 = 0; rw [e0]
    | ⟨1, _⟩ => show win0_2.index t (1 : Fin 2) * 1024 + 1 * q.val = s.val; rw [e1, hs]; omega)
  rw [ei]
  exact shapeCast_a_1a_apply _ shapeCasts_S4096_S1x4096 (0 : Fin 1) s

/-- THE SECOND VISIT'S OUTPUT ENTRY (p, q) at an odd point t is entry (1024·(t/8) + p, 1024·((t/2)%4) + q) of the
    result: the first visit's blocks are the first half of the inner axis, the second visit's the second half. -/
theorem out_entry (c : Dev nD) (t : Fin cfg0.N) (h1 : t.val % 2 = 1) (p q : Fin 1024) (r : Fin 8192) (s : Fin 4096)
    (hr : r.val = t.val / 8 * 1024 + p.val) (hs : s.val = t.val / 2 % 4 * 1024 + q.val) :
    k0_pay3 (F := Ideal) (k0_pay2 (k0_pay2 k0_pay1 (iblk m c 0 (before t)) (iblk m c 1 (before t)))
        (iblk m c 0 t) (iblk m c 1 t)) (iblk m c 2 t) (ix2 p q)
      = entry (m ((c : Thread nD τ).loc main_arg0)) (m ((c : Thread nD τ).loc main_arg1)) (m ((c : Thread nD τ).loc main_arg2)) (m ((c : Thread nD τ).loc main_arg3)) r s := by
  have hb : (before t).val = t.val - 1 := before_val t
  refine (BlockAlgebra.out_at (iblk m c 0 (before t)) (iblk m c 1 (before t)) (iblk m c 0 t) (iblk m c 1 t)
    (iblk m c 2 t) p q).trans ?_
  rw [entry_halves]
  refine congrArg₂ (· + ·) (congrArg₂ (· + ·) (congrArg (0 + ·) (Finset.sum_congr rfl fun k _ => ?_))
    (Finset.sum_congr rfl fun k _ => ?_)) ?_
  · exact congrArg₂ (· * ·)
      (data_block m c (before t) p k r (lo k) (by rw [hb, hr]; omega) (by rw [hb]; show k.val = _; omega))
      (weight_block m c (before t) q k s (lo k) (by rw [hb, hs]; omega) (by rw [hb]; show k.val = _; omega) _ _ rfl rfl)
  · exact congrArg₂ (· * ·)
      (data_block m c t p k r (hi k) hr (by show 2048 + k.val = _; omega))
      (weight_block m c t q k s (hi k) hs (by show 2048 + k.val = _; omega) _ _ rfl rfl)
  · exact bias_block m c t q s hs

end Cert.KernelIdeal.Blocks

end
-- ==== Proof.KernelResult.lean ====
/-
  The kernel's result array, as one function of the argument arrays.

  The output's block (t / 8, (t / 2) % 4) is written back once, after the second visit of that block, which is
  the odd point t.  What is written there is the result's entries at rows 1024·(t/8) + p and columns
  1024·((t/2)%4) + q.  Every index (r, s) of the 8192×4096 array lies in exactly such a block — that of the
  odd point t = 2·(4·(r / 1024) + s / 1024) + 1 — so after the run the whole array holds the result.
-/
import proofs.«122250_j45853070852650_2_alg».proof.Proof.Blocks
import proofs.«122250_j45853070852650_2_alg».proof.Proof.Gen.KernelIdeal.Value

noncomputable section

open Idealize.ShloMosaic Idealize.ShloMosaic.TcCoe Idealize.SL.Sem Idealize.ShloMosaic.ValueIdx
open Idealize.ShloMosaic.Pipeline (Dat)

namespace Cert.KernelIdeal.KernelResult

open Cert.KernelIdeal Cert.KernelIdeal.Gen Cert.MaskedLinear
open Cert.KernelIdeal.PointValue (before)

variable (m : (ℓ : Loc nD τ sig) → Buf (Elt Ideal) ℓ) (ρ : Dev nD → PrngReg)

/-- The result array of the specification, at the launch contents of the four arguments. -/
abbrev res (c : Dev nD) : Buf (Elt Ideal) ((c : Thread nD τ).loc main_v4) :=
  result (m ((c : Thread nD τ).loc main_arg0)) (m ((c : Thread nD τ).loc main_arg1)) (m ((c : Thread nD τ).loc main_arg2)) (m ((c : Thread nD τ).loc main_arg3))

/-- WHAT AN ODD POINT WRITES BACK is its block of the result. -/
theorem flushed_eq (c : Dev nD) (t : Fin cfg0.N) (hf : (cfg0.win 3).flush t = true) :
    (dats m 0 c).flushed 3 t = ((cfg0.win 3).blk t).view.read (Elt Ideal) (res m c) := by
  have h1 : t.val % 2 = 1 := (flush0_3 t).mp hf
  obtain ⟨-, -, -, -, -, -, e0, e1⟩ := Blocks.index_facts t
  rw [Value.flushed3, PointValue.out_after_odd m c t h1]
  funext y
  obtain ⟨p, q, rfl⟩ : ∃ (p q : Fin 1024), y = ix2 p q := ⟨y 0, y 1, eq_ix2 y⟩
  show k0_pay3 (F := Ideal) (k0_pay2 (k0_pay2 k0_pay1 (iblk m c 0 (before t)) (iblk m c 1 (before t)))
        (iblk m c 0 t) (iblk m c 1 t)) (iblk m c 2 t) (ix2 p q)
      = res m c (((cfg0.win 3).blk t).view.emb (ix2 p q))
  exact Blocks.out_entry m c t h1 p q _ _
    (by show win0_3.index t (0 : Fin 2) * 1024 + 1 * p.val = _; rw [e0]; omega)
    (by show win0_3.index t (1 : Fin 2) * 1024 + 1 * q.val = _; rw [e1]; omega)

/-- An index of the array is in point t's block iff each coordinate is in the block's range on its axis. -/
theorem mem_blk (t : Fin cfg0.N) (i : S8192x4096.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v4).slice (win0_3.rect t)).set ↔ _
  rw [View.set_slice_whole, Rect.mem_set_unit]
  exact Iff.rfl

/-- Every index is in the block of some point that writes back: the odd point of its row block and column block. -/
theorem cover (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hN : cfg0.N = 64 := N_0
  let t : Fin cfg0.N := ⟨2 * (4 * ((i 0).val / 1024) + (i 1).val / 1024) + 1, by rw [hN]; omega⟩
  have ht : t.val = 2 * (4 * ((i 0).val / 1024) + (i 1).val / 1024) + 1 := rfl
  obtain ⟨-, -, -, -, -, -, e0, e1⟩ := Blocks.index_facts t
  refine ⟨t, (flush0_3 t).mpr (by rw [ht]; omega), ?_⟩
  rw [mem_blk]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 1024 ≤ (i 1).val ∧ (i 1).val < win0_3.index t (1 : Fin 2) * 1024 + 1024
    rw [e1, ht]; omega

/-- THE RESULT ARRAY after the run is the specification's result of the arguments. -/
theorem final (c : Dev nD) : (dats m 0 c).arrAt 3 cfg0.N = res m c :=
  (dats m 0 c).arrAt_eq_of_cover 3 (res m c) (flushed_eq m c) cover

/-- The run, read: the result array at the specification's result, the arguments unchanged. -/
theorem run : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KernelResult

end
-- ==== Proof.RefSide.lean ====
/-
  The reference computes the same function.

  The reference multiplies the mask into the weight, contracts the data with it over the shared inner axis
  in one sum of 4096 terms, broadcasts the bias along the rows and adds.  Read at index (r, s) that is

      Σ_{k < 4096} X[r, k] · (M[s, k] · W[s, k]) + B[s],

  which is the specification's entry, term for term: only the spelling of the indices differs.
-/
import proofs.«122250_j45853070852650_2_alg».proof.Proof.Gen.ReferenceIdeal.Read
import proofs.«122250_j45853070852650_2_alg».proof.Proof.Spec

noncomputable section

open Idealize.ShloMosaic Idealize.ShloMosaic.TcCoe Idealize.ShloMosaic.ValueIdx

namespace Cert.ReferenceIdeal.RefValue

open Cert.ReferenceIdeal Cert.ReferenceIdeal.Read Cert.MaskedLinear

/-- The reference's last stage, as a function of the four arguments, is the specification's result array. -/
theorem stage_is_result (X : S8192x4096.Idx → EReal) (W M : S4096x4096.Idx → EReal) (B : S4096.Idx → EReal) :
    val_main_v4 (F := Ideal) X W M B = result X W M B := by
  funext i
  have el : ∀ k : Fin 4096, lidx_main_v1 i k = ix2 (⟨(i 0).val, idx2_lt0 i⟩ : Fin 8192) k := fun k =>
    funext fun a => Fin.ext (by match a with | ⟨0, _⟩ => rfl | ⟨1, _⟩ => rfl)
  have er : ∀ k : Fin 4096, ridx_main_v1 i k = ix2 (⟨(i 1).val, idx2_lt1 i⟩ : Fin 4096) k := fun k =>
    funext fun a => Fin.ext (by match a with | ⟨0, _⟩ => rfl | ⟨1, _⟩ => rfl)
  have eb : idx_main_v2 (idx_main_v3 i) = ix1 (⟨(i 1).val, idx2_lt1 i⟩ : Fin 4096) :=
    funext fun a => Fin.ext (by match a with | ⟨0, _⟩ => rfl)
  rw [val_main_v4_apply, val_main_v1_apply, val_main_v3_apply, val_main_v2_apply, eb]
  show (∑ k : Fin 4096, X (lidx_main_v1 i k) * val_main_v0 (F := Ideal) W M (ridx_main_v1 i k))
        + B (ix1 (⟨(i 1).val, idx2_lt1 i⟩ : Fin 4096))
      = (∑ k : Fin 4096, term X W M ⟨(i 0).val, idx2_lt0 i⟩ ⟨(i 1).val, idx2_lt1 i⟩ k)
        + B (ix1 (⟨(i 1).val, idx2_lt1 i⟩ : Fin 4096))
  refine congrArg (· + B (ix1 (⟨(i 1).val, idx2_lt1 i⟩ : Fin 4096))) (Finset.sum_congr rfl fun k _ => ?_)
  rw [el k, er k]
  rfl

end Cert.ReferenceIdeal.RefValue

end
-- ==== Proof.lean ====
/-
  A masked linear layer: out = data · (mask ⊙ weight)ᵀ + bias, with data 8192×4096, weight and mask
  4096×4096 and bias of length 4096.

  The kernel tiles the result into 1024×1024 blocks and walks the inner axis of length 4096 in two halves of
  2048, adding each half's block product into an accumulator it clears on the first half; after the second
  half it adds the bias row and writes the block back.  Before the kernel the host multiplies the mask into
  the weight entry by entry and narrows both operands to a shorter float format.  The reference multiplies
  the mask into the weight and contracts the whole inner axis in one sum, then adds the bias.

  Over the extended reals a change of float format is the identity, so both programs compute, at (r, s),
      Σ_{k < 4096} data[r, k] · (mask[s, k] · weight[s, k]) + bias[s];
  they differ only in the grouping of the sum — ((0 + first half) + second half) against the whole — and
  addition of extended reals is commutative and associative, infinities included.  Hence the two results are
  equal entry by entry, and the precondition that the inputs be finite is never used.

  The three programs' runs (every fair execution ends, nothing faults, the arguments end unchanged) and the
  reading of the reference's operations at an index come from generated modules this file imports.  The
  idealized kernel is the kernel's own text read over the extended reals: nothing was rewritten, so that
  conjunct asks for nothing.
-/
import proofs.«122250_j45853070852650_2_alg».proof.Defs
import proofs.«122250_j45853070852650_2_alg».proof.Proof.Gen.Kernel
import proofs.«122250_j45853070852650_2_alg».proof.Proof.Gen.Kernel.Skeleton
import proofs.«122250_j45853070852650_2_alg».proof.Proof.Gen.Kernel.Launch
import proofs.«122250_j45853070852650_2_alg».proof.Proof.Gen.Kernel.Points
import proofs.«122250_j45853070852650_2_alg».proof.Proof.Gen.Kernel.Frame
import proofs.«122250_j45853070852650_2_alg».proof.Proof.Gen.KernelIdeal
import proofs.«122250_j45853070852650_2_alg».proof.Proof.Gen.KernelIdeal.Skeleton
import proofs.«122250_j45853070852650_2_alg».proof.Proof.Gen.KernelIdeal.Launch
import proofs.«122250_j45853070852650_2_alg».proof.Proof.Gen.KernelIdeal.Points
import proofs.«122250_j45853070852650_2_alg».proof.Proof.Gen.KernelIdeal.Frame
import proofs.«122250_j45853070852650_2_alg».proof.Proof.Gen.ReferenceIdeal
import proofs.«122250_j45853070852650_2_alg».proof.Proof.Gen.Pre_finite_inputs
import proofs.«122250_j45853070852650_2_alg».proof.Proof.Gen.KernelIdeal.Value
import proofs.«122250_j45853070852650_2_alg».proof.Proof.Gen.ReferenceIdeal.Run
import proofs.«122250_j45853070852650_2_alg».proof.Proof.Gen.ReferenceIdeal.Read
import proofs.«122250_j45853070852650_2_alg».proof.Proof.HalfSums
import proofs.«122250_j45853070852650_2_alg».proof.Proof.KernelResult
import proofs.«122250_j45853070852650_2_alg».proof.Proof.RefSide
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with its result dropped: it ends and leaves its arguments unchanged. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading over the extended reals. -/
theorem preserves : Cert.preserves_Kernel_KernelIdeal := trivial

/-- From memories that agree on the four arguments both programs end with the same result array: the
    kernel's is the specification's result of its arguments (its blocks, written back at the second visits,
    tile the array), the reference's last stage is the same function of arguments that agree. -/
theorem algebraic : Cert.algebraic_KernelIdeal_ReferenceIdeal := by
  intro m ρ m' ρ' _ hagree
  refine ⟨fun c => Cert.KernelIdeal.KernelResult.res m c, Cert.KernelIdeal.KernelResult.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.stage_is_result,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
